-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S8x2048 : Shape := ⟨2, ![8, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S8x2048 : S_.BroadcastsInDim S8x2048 (![] : Fin 0 → Fin S8x2048.rank)
  reducesTo_S8x2048_S_d0_1 : S8x2048.ReducesTo [0, 1] S_

variable [Facts]

def fn {F : FTy → Type} [FloatOps F] (main_arg0 : FVec F S16384x2048 .f32) (main_arg1 : FVec F S8x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S8x2048 .f32 := Host.absf main_arg1
  let main_cst_0 : FVec F S_ .f32 := constant S_ .f32 0x7F800000#32
  let main_v5 : FVec F S8x2048 .f32 := broadcastInDim S8x2048 ![] bcast_S_S8x2048 main_cst_0
  let main_v6 : IVec S8x2048 1 := cmpf .olt main_v4 main_v5
  let main_c_1 : IVec S_ 1 := constantI S_ 1 1#1
  let main_v7 : IVec S_ 1 := (fun x v => Host.reduce IntOp.andi x v reducesTo_S8x2048_S_d0_1 h_S_) main_v6 main_c_1
  let main_v8 : IVec S_ 1 := andi main_v3 main_v7
  main_v8
-- ==== Kernel.lean ====
abbrev S16384x2048 : Shape := ⟨2, ![16384, 2048]⟩
abbrev S8x2048 : Shape := ⟨2, ![8, 2048]⟩
abbrev S8x16384 : Shape := ⟨2, ![8, 16384]⟩
abbrev S1024x2048 : Shape := ⟨2, ![1024, 2048]⟩
abbrev S8x1024 : Shape := ⟨2, ![8, 1024]⟩
abbrev S16384x8 : Shape := ⟨2, ![16384, 8]⟩

abbrev nBuf : Space → Nat
  | .hbm => 4
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S8x2048, .f32⟩
  | .hbm, ⟨2, _⟩ => ⟨S8x16384, .f32⟩
  | .hbm, ⟨3, _⟩ => ⟨S16384x8, .f32⟩
  | .local _ .vmem, ⟨0, _⟩ => ⟨S1024x2048, .f32⟩
  | .local _ .vmem, ⟨1, _⟩ => ⟨S1024x2048, .f32⟩
  | .local _ .vmem, ⟨2, _⟩ => ⟨S8x2048, .f32⟩
  | .local _ .vmem, ⟨3, _⟩ => ⟨S8x1024, .f32⟩
  | .local _ .vmem, ⟨4, _⟩ => ⟨S8x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S8x2048_S8x2048_0_0 : ∀ a, (![0, 0] : Fin 2 → Nat) a + S8x2048.size a ≤ S8x2048.size a
  h_S8x2048 : 0 < S8x2048.numel
  inb_S1024x2048_S1024x2048_0_0 : ∀ a, (![0, 0] : Fin 2 → Nat) a + S1024x2048.size a ≤ S1024x2048.size a
  h_S1024x2048 : 0 < S1024x2048.numel
  inb_S8x1024_S8x1024_0_0 : ∀ a, (![0, 0] : Fin 2 → Nat) a + S8x1024.size a ≤ S8x1024.size a
  h_S8x1024 : 0 < S8x1024.numel
  transposes_S8x16384_S16384x8_1_0 : S8x16384.Transposes [1, 0] S16384x8
  dot_S8x2048_S1024x2048_S8x1024_1_1_0_0_n_n_wf : DotDims.WF S8x2048 S1024x2048 S8x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x2048.size a ≤ S8x2048.size a
  hwx0_1 : ∀ i : grid0.Coords, EltTy.bits .f32 = 32 ∨ (Rect.block (s := S8x2048) S8x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S8x16384.size a
  hwx0_2 : ∀ i : grid0.Coords, EltTy.bits .f32 = 32 ∨ (Rect.block (s := S8x16384) S8x1024.size (cc0_transform_2 i) (hinb0_2 i)).WholeWords (EltTy.packing .f32)

variable [Facts₀]

def dot_S8x2048_S1024x2048_S8x1024_1_1_0_0_n_n : DotDims S8x2048 S1024x2048 S8x1024 where
  lhsContracting := [1]
  rhsContracting := [1]
  lhsNonContracting := [0]
  rhsNonContracting := [0]
  lhsBatch := []
  rhsBatch := []
  wf := dot_S8x2048_S1024x2048_S8x1024_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S8x2048 : Shape := ⟨2, ![8, 2048]⟩
abbrev S2048x8 : Shape := ⟨2, ![2048, 8]⟩
abbrev S16384x8 : Shape := ⟨2, ![16384, 8]⟩

abbrev nBuf : Space → Nat
  | .hbm => 4
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8x2048, .f32⟩
  | .hbm, ⟨2, _⟩ => ⟨S2048x8, .f32⟩
  | .hbm, ⟨3, _⟩ => ⟨S16384x8, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  transposes_S8x2048_S2048x8_1_0 : S8x2048.Transposes [1, 0] S2048x8
  dot_S16384x2048_S2048x8_S16384x8_1_0_0_1_n_n_wf : DotDims.WF S16384x2048 S2048x8 S16384x8 [1] [0] [0] [1] [] []

variable [Facts₀]

def dot_S16384x2048_S2048x8_S16384x8_1_0_0_1_n_n : DotDims S16384x2048 S2048x8 S16384x8 where
  lhsContracting := [1]
  rhsContracting := [0]
  lhsNonContracting := [0]
  rhsNonContracting := [1]
  lhsBatch := []
  rhsBatch := []
  wf := dot_S16384x2048_S2048x8_S16384x8_1_0_0_1_n_n_wf

class Facts : Prop extends Facts₀ where

variable [Facts]
-- ==== Proof.GateLogits.lean ====
/-
  The router gate's logits as functions of the token matrix and the expert weights, index by index, over the
  extended reals.

  For tokens `x : [16384, 2048]` and weights `w : [8, 2048]` the logit of token `t` for expert `e` is the inner
  product of row `t` of `x` with row `e` of `w`.  `logits` lays the result out token-major, `[16384, 8]`, with
  each product written token factor first; `logitsT` lays it out expert-major, `[8, 16384]`, with each product
  written weight factor first.  The two agree entry by entry because multiplication of extended reals commutes —
  no finiteness of the inputs is needed, since nothing is distributed or cancelled.
-/
import Idealize.ShloMosaic.Lib.ValueIdx
import Idealize.ShloMosaic.PureOps.Ideal

noncomputable section

open scoped BigOperators

namespace Cert.Gate

open Idealize.ShloMosaic Idealize.ShloMosaic.ValueIdx

/-- Token-major logits: entry `(t, e)` is `∑ k, x (t, k) · w (e, k)`. -/
def logits (x : FVec Ideal ⟨2, ![16384, 2048]⟩ .f32) (w : FVec Ideal ⟨2, ![8, 2048]⟩ .f32) :
    FVec Ideal ⟨2, ![16384, 8]⟩ .f32 :=
  fun i => ∑ k : Fin 2048, x (ix2 (i 0) k) * w (ix2 (i 1) k)

/-- Expert-major logits: entry `(e, t)` is `∑ k, w (e, k) · x (t, k)`. -/
def logitsT (x : FVec Ideal ⟨2, ![16384, 2048]⟩ .f32) (w : FVec Ideal ⟨2, ![8, 2048]⟩ .f32) :
    FVec Ideal ⟨2, ![8, 16384]⟩ .f32 :=
  fun i => ∑ k : Fin 2048, w (ix2 (i 0) k) * x (ix2 (i 1) k)

/-- The expert-major entry `(e, t)` is the token-major entry `(t, e)`: the same products, each with its two
    factors exchanged. -/
theorem logitsT_eq_logits (x : FVec Ideal ⟨2, ![16384, 2048]⟩ .f32) (w : FVec Ideal ⟨2, ![8, 2048]⟩ .f32)
    (i : (⟨2, ![8, 16384]⟩ : Shape).Idx) (j : (⟨2, ![16384, 8]⟩ : Shape).Idx)
    (h0 : (i 0).val = (j 1).val) (h1 : (i 1).val = (j 0).val) :
    logitsT x w i = logits x w j := by
  have e0 : i 0 = j 1 := Fin.ext h0
  have e1 : i 1 = j 0 := Fin.ext h1
  unfold logitsT logits
  rw [e0, e1]
  exact Finset.sum_congr rfl fun k _ => mul_comm _ _

end Cert.Gate

end
-- ==== Proof.LibTransposedProduct.lean ====
/-
  A matrix product with both operands contracted along their LAST axis, read at an index, over arbitrary sizes.

  For an `[m, k]` operand `A` and an `[n, k]` operand `B` the product entry `(a, b)` is `∑ c, A (a, c) · B (b, c)`:
  `A · Bᵀ`. At the extended reals a kernel's product into a zero accumulator and the host's product of the same
  operands are both this sum.
-/
import Idealize.ShloMosaic.Lib.ValueIdx
import Idealize.ShloMosaic.PureOps.Ideal.Laws

noncomputable section

namespace Cert.Lib.TransposedProduct

open Idealize.ShloMosaic Idealize.ShloMosaic.ValueIdx

variable {m k n : Nat} {φ₁ φ₂ : FTy}

/-- The left operand is read at `(a, c)` and the right one at `(b, c)`, for output index `(a, b)` and contracted
    coordinate `c`. -/
theorem lhsIdx_eq (a : Fin m) (b : Fin n) (c : Fin k) :
    (DotDims.transposedRhs m k n).lhsIdx (ix2 a b) ((contrEquiv1 (DotDims.transposedRhs m k n) k rfl rfl).symm c) = ix2 a c := by
  have c2 := contrEquiv1_symm_val (DotDims.transposedRhs m k n) k rfl rfl c
  funext ax; apply Fin.ext
  match ax with
  | ⟨0, _⟩ => simp [DotDims.lhsIdx, DotDims.transposedRhs]; rfl
  | ⟨1, _⟩ => simp [DotDims.lhsIdx, DotDims.transposedRhs]; exact c2

theorem rhsIdx_eq (a : Fin m) (b : Fin n) (c : Fin k) :
    (DotDims.transposedRhs m k n).rhsIdx (ix2 a b) ((contrEquiv1 (DotDims.transposedRhs m k n) k rfl rfl).symm c) = ix2 b c := by
  have c2 := contrEquiv1_symm_val (DotDims.transposedRhs m k n) k rfl rfl c
  funext ax; apply Fin.ext
  match ax with
  | ⟨0, _⟩ => simp [DotDims.rhsIdx, DotDims.transposedRhs]; rfl
  | ⟨1, _⟩ => simp [DotDims.rhsIdx, DotDims.transposedRhs]; exact c2

/-- A kernel's product into the zero splat, at `(a, b)`: the sum over the contracted coordinate. -/
theorem matmul_apply (d : DotDims ⟨2, ![m, k]⟩ ⟨2, ![n, k]⟩ ⟨2, ![m, n]⟩) (hd : d = DotDims.transposedRhs m k n)
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  subst hd
  show FloatOps.matmul _ prec A B (constant ⟨2, ![m, n]⟩ .f32 0x00000000#32) (ix2 a b) = _
  rw [Ideal.matmul_constant_zero_apply, ← Equiv.sum_comp (contrEquiv1 (DotDims.transposedRhs m k n) k rfl rfl).symm]
  refine Finset.sum_congr rfl fun c _ => ?_
  rw [lhsIdx_eq, rhsIdx_eq]

/-- The host's product at `(a, b)`. -/
theorem dotGeneral_apply (d : DotDims ⟨2, ![m, k]⟩ ⟨2, ![n, k]⟩ ⟨2, ![m, n]⟩) (hd : d = DotDims.transposedRhs m k n)
    (prec : Option ContractPrecision) (A : FVec Ideal ⟨2, ![m, k]⟩ φ₁) (B : FVec Ideal ⟨2, ![n, k]⟩ φ₂)
    (a : Fin m) (b : Fin n) :
    Host.dotGeneral d prec A B (ix2 a b) = ∑ c : Fin k, A (ix2 a c) * B (ix2 b c) := by
  subst hd
  show FloatOps.dotGeneral _ prec _ A B (ix2 a b) = _
  rw [Ideal.dotGeneral_apply, ← Equiv.sum_comp (contrEquiv1 (DotDims.transposedRhs m k n) k rfl rfl).symm]
  refine Finset.sum_congr rfl fun c _ => ?_
  rw [lhsIdx_eq, rhsIdx_eq]

end Cert.Lib.TransposedProduct

end
-- ==== Proof.GateKernel.lean ====
/-
  The idealized kernel's value: its result buffer ends holding the token-major logits of its two arguments.

  The grid has 16 points.  At point `t` the body sees rows `1024·t … 1024·t + 1023` of the token matrix, the whole
  weight matrix, and columns `1024·t … 1024·t + 1023` of an expert-major `[8, 16384]` array.  It stores one matrix
  product into the output block, contracting the last axis of both operands: entry `(e, r)` is the inner product
  of weight row `e` with row `r` of the token block, that is, of token `1024·t + r`.  So every point writes back a
  block of ONE array-wide function, the expert-major logits; the 16 blocks tile the array's columns, hence the
  array ends holding that function.  The host then transposes the array into the result buffer, and entry `(t, e)`
  of the transpose is the expert-major entry `(e, t)`, which is the token-major logit at `(t, e)` with each product's
  factors exchanged.
-/
import proofs.«172564_g56178172231927_cont_sun_m_171_25_alg».proof.Proof.Gen.KernelIdeal.Frame
import proofs.«172564_g56178172231927_cont_sun_m_171_25_alg».proof.Proof.GateLogits
import proofs.«172564_g56178172231927_cont_sun_m_171_25_alg».proof.Proof.LibTransposedProduct
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.GateValue

open Cert.KernelIdeal Cert.KernelIdeal.Gen

variable (m : (ℓ : Loc nD τ sig) → Buf (Elt Ideal) ℓ) (ρ : Dev nD → PrngReg)

theorem zero_offsets : (![0, 0] : Fin 2 → Nat) = fun _ => 0 := funext fun a => by fin_cases a <;> rfl

/-- The body's one product contracts the last axis of both of its operands. -/
theorem dims_eq : dot_S8x2048_S1024x2048_S8x1024_1_1_0_0_n_n = DotDims.transposedRhs 8 2048 1024 := rfl

/-- What the body stores, at expert `e` and row `r` of the block: the inner product of row `e` of the weight block
    with row `r` of the token block. -/
theorem stored_apply (wb : Vec Ideal S8x2048 .f32) (xb : Vec Ideal S1024x2048 .f32) (e : Fin 8) (r : Fin 1024) :
    k0_pay1 wb xb (ix2 e r) = ∑ k : Fin 2048, wb (ix2 e k) * xb (ix2 r k) := by
  unfold k0_pay1
  exact Cert.Lib.TransposedProduct.matmul_apply _ dims_eq none wb xb e r

/-- Where each window's block sits at grid point `t`: the token block is the `t`-th block of 1024 rows, the weight
    block is the whole weight matrix, and the output block is the `t`-th block of 1024 columns. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val :=
  (by decide +kernel : ∀ t : Fin grid0.N, _)

/-- Row `r` of the token block at point `t` is row `1024·t + r` of the token matrix. -/
theorem token_block_apply (c : Dev nD) (t : Fin cfg0.N) (r : Fin 1024) (k : Fin 2048) (i : S16384x2048.Idx)
    (h0 : (i 0).val = t.val * 1024 + r.val) (h1 : (i 1).val = k.val) :
    (iblk m c 0 t : Vec Ideal S1024x2048 .f32) (ix2 r k) = (V m c main_arg0 : S16384x2048.Idx → EReal) i := by
  obtain ⟨e0, e1, -, -, -, -⟩ := block_indices t
  unfold iblk
  rw [View.read_apply]
  show V m c main_arg0 _ = V m c main_arg0 _
  congr 1
  funext a
  apply Fin.ext
  match a with
  | ⟨0, _⟩ => show win0_0.index t (0 : Fin 2) * 1024 + 1 * r.val = (i 0).val; rw [e0, h0]; omega
  | ⟨1, _⟩ => show win0_0.index t (1 : Fin 2) * 2048 + 1 * k.val = (i 1).val; rw [e1, h1]; omega

/-- The weight block at every point is the weight matrix. -/
theorem weight_block_apply (c : Dev nD) (t : Fin cfg0.N) (e : Fin 8) (k : Fin 2048) :
    (iblk m c 1 t : Vec Ideal S8x2048 .f32) (ix2 e k) = (V m c main_arg1 : S8x2048.Idx → EReal) (ix2 e k) := by
  obtain ⟨-, -, e2, e3, -, -⟩ := block_indices t
  unfold iblk
  rw [View.read_apply]
  show V m c main_arg1 _ = V m c main_arg1 _
  congr 1
  funext a
  apply Fin.ext
  match a with
  | ⟨0, _⟩ => show win0_1.index t (0 : Fin 2) * 8 + 1 * e.val = e.val; rw [e2]; omega
  | ⟨1, _⟩ => show win0_1.index t (1 : Fin 2) * 2048 + 1 * k.val = k.val; rw [e3]; omega

/-- One entry of what point `t` stores: at expert `e` and column `r` of the block it is the expert-major logit of
    expert `e` and token `1024·t + r`. -/
theorem block_entry (c : Dev nD) (t : Fin cfg0.N) (j : S8x1024.Idx) (i : S8x16384.Idx)
    (h0 : (i 0).val = (j 0).val) (h1 : (i 1).val = t.val * 1024 + (j 1).val) :
    k0_pay1 (iblk m c 1 t) (iblk m c 0 t) j = Cert.Gate.logitsT (V m c main_arg0) (V m c main_arg1) i := by
  obtain ⟨e, r, rfl⟩ : ∃ (e : Fin 8) (r : Fin 1024), j = ix2 e r := ⟨j 0, j 1, eq_ix2 j⟩
  refine (stored_apply (iblk m c 1 t) (iblk m c 0 t) e r).trans ?_
  unfold Cert.Gate.logitsT
  have he : i 0 = e := Fin.ext h0
  rw [he]
  refine Finset.sum_congr rfl fun k _ => ?_
  have hw := weight_block_apply m c t e k
  have hx := token_block_apply m c t r k (ix2 (i 1) k) h1 rfl
  exact congrArg₂ (· * ·) hw hx

/-- What point `t` writes back is block `t` of the expert-major logits of the arguments. -/
theorem flushed_eq (c : Dev nD) (t : Fin cfg0.N) :
    (dats m 0 c).flushed 2 t
      = ((cfg0.win 2).blk t).view.read (Elt Ideal) (Cert.Gate.logitsT (V m c main_arg0) (V m c main_arg1)) := by
  show (cfg0.win 2).cut (grid0.coords t) ((dats m 0 c).after 2 t) = _
  rw [after0_2]
  unfold out0_2
  rw [View.canon_unit_zero zero_offsets]
  simp only [View.ld_unit_zero (S := S8x2048) zero_offsets, View.ld_unit_zero (S := S1024x2048) zero_offsets]
  obtain ⟨-, -, -, -, e4, e5⟩ := block_indices t
  funext j
  show k0_pay1 (iblk m c 1 t) (iblk m c 0 t) j
    = Cert.Gate.logitsT (V m c main_arg0) (V m c main_arg1) (((cfg0.win 2).blk t).view.emb j)
  refine block_entry m c t j (((cfg0.win 2).blk t).view.emb j) ?_ ?_
  · show win0_2.index t (0 : Fin 2) * 8 + 1 * (j 0).val = (j 0).val
    rw [e4]; omega
  · show win0_2.index t (1 : Fin 2) * 1024 + 1 * (j 1).val = t.val * 1024 + (j 1).val
    rw [e5]; omega

/-- An index of the expert-major array lies in point `t`'s block iff each coordinate lies in the block's range. -/
theorem mem_block (t : Fin cfg0.N) (i : S8x16384.Idx) :
    i ∈ ((cfg0.win 2).blk t).view.set ↔ ∀ a : Fin 2, win0_2.index t a * S8x1024.size a ≤ (i a).val
      ∧ (i a).val < win0_2.index t a * S8x1024.size a + S8x1024.size a := by
  show i ∈ ((View.whole main_v0).slice (win0_2.rect t)).set ↔ _
  rw [View.set_slice_whole, Rect.mem_set_unit]
  exact Iff.rfl

/-- Every entry of the expert-major array is written back by some point: column `n` by point `n / 1024`. -/
theorem covered (i : S8x16384.Idx) :
    ∃ t : Fin cfg0.N, (cfg0.win 2).flush t = true ∧ i ∈ ((cfg0.win 2).blk t).view.set := by
  have hi0 : (i 0).val < 8 := (i 0).isLt
  have hi1 : (i 1).val < 16384 := (i 1).isLt
  obtain ⟨t, ht⟩ : ∃ t : Fin cfg0.N, t.val = (i 1).val / 1024 :=
    ⟨⟨(i 1).val / 1024, by rw [show cfg0.N = 16 from N_0]; omega⟩, rfl⟩
  obtain ⟨-, -, -, -, e4, e5⟩ := block_indices t
  refine ⟨t, flush0_2 t, ?_⟩
  rw [mem_block]
  intro a
  match a with
  | ⟨0, _⟩ =>
    show win0_2.index t (0 : Fin 2) * 8 ≤ (i 0).val ∧ (i 0).val < win0_2.index t (0 : Fin 2) * 8 + 8
    rw [e4]; omega
  | ⟨1, _⟩ =>
    show win0_2.index t (1 : Fin 2) * 1024 ≤ (i 1).val ∧ (i 1).val < win0_2.index t (1 : Fin 2) * 1024 + 1024
    rw [e5]; omega

/-- After the region the expert-major array holds the expert-major logits of the arguments. -/
theorem region_result (c : Dev nD) :
    (dats m 0 c).arrAt 2 cfg0.N = Cert.Gate.logitsT (V m c main_arg0) (V m c main_arg1) :=
  (dats m 0 c).arrAt_eq_of_cover 2 _ (fun t _ => flushed_eq m c t) covered

/-- The program's result: the host transposes the expert-major array, so the result buffer ends holding the
    token-major logits of the arguments — entry `(t, e)` of the transpose is entry `(e, t)` of the array. -/
theorem result_eq (c : Dev nD) :
    Pipeline.afterTail₀ cfgs (dats m) 0 (V0 m) [hostOps1] c main_v1
      = Cert.Gate.logits (m ((c : Thread nD τ).loc main_arg0)) (m ((c : Thread nD τ).loc main_arg1)) := by
  unfold Pipeline.afterTail₀
  show StableHlo.after hostOps1 _ (Proc.devRef .tc main_v1) = _
  after_results
  have hv0 : Pipeline.withArrays (cfgs 0).spec c (V0 m c) (fun w => (dats m 0 c).arrAt w (cfgs 0).N) (Proc.devRef .tc main_v0)
      = Cert.Gate.logitsT (m ((c : Thread nD τ).loc main_arg0)) (m ((c : Thread nD τ).loc main_arg1)) :=
    (Pipeline.withArrays_arr spec0 launch0.win.arr_inj c _ _ 2).trans (region_result m c)
  rw [hv0]
  funext j
  rw [transpose_apply [1, 0] _ transposes_S8x16384_S16384x8_1_0 j (ix2 (j 1) (j 0))
    (fun b => match b with | ⟨0, _⟩ => rfl | ⟨1, _⟩ => rfl)]
  exact Cert.Gate.logitsT_eq_logits _ _ _ j rfl rfl

/-- The run of the idealized kernel, read: the result buffer at the token-major logits of the arguments, the
    arguments unchanged. -/
theorem run : θ_run defs (onTc (τ := τ) (main (F := Ideal))) ⟨m, fun _ => 0, ρ⟩ fun r => ∀ c : Dev nD,
      r.2.mem ((c : Thread nD τ).loc main_v1)
        = Cert.Gate.logits (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v1 (Pipeline.mem_restRefs_of main_v1 rfl (fun w => by fin_cases w <;> decide))).trans (result_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.GateValue

end
-- ==== Proof.GateReference.lean ====
/-
  The reference, read at an index: `jnp.matmul(x, weight.T)` is the token-major logits.

  The reference transposes the weights to `[2048, 8]` and contracts the token matrix's last axis with the transposed
  weights' first; at entry `(t, e)` that is `∑ k, x (t, k) · wᵀ (k, e)`, and `wᵀ (k, e)` is `w (e, k)`.
-/
import proofs.«172564_g56178172231927_cont_sun_m_171_25_alg».proof.Defs
import proofs.«172564_g56178172231927_cont_sun_m_171_25_alg».proof.Proof.Gen.ReferenceIdeal.Run
import proofs.«172564_g56178172231927_cont_sun_m_171_25_alg».proof.Proof.Gen.ReferenceIdeal.Read
import proofs.«172564_g56178172231927_cont_sun_m_171_25_alg».proof.Proof.GateLogits

noncomputable section

open Idealize.ShloMosaic Idealize.ShloMosaic.TcCoe Idealize.SL.Sem Idealize.ShloMosaic.ValueIdx

namespace Cert.ReferenceIdeal.GateValue

open Cert.ReferenceIdeal Cert.ReferenceIdeal.Gen Cert.ReferenceIdeal.Read

/-- The reference's result, as a function of its two arguments, is the token-major logits. -/
theorem reference_eq (x : (⟨S16384x2048, .f32⟩ : BufTy).Contents (Elt Ideal))
    (w : (⟨S8x2048, .f32⟩ : BufTy).Contents (Elt Ideal)) :
    val_main_v1 (F := Ideal) x w = Cert.Gate.logits x w := by
  funext i
  rw [val_main_v1_apply]
  unfold Cert.Gate.logits
  refine Finset.sum_congr rfl fun k _ => ?_
  rw [val_main_v0_apply]
  have el : lidx_main_v1 i k = ix2 (i 0) k :=
    funext fun a => Fin.ext (by match a with | ⟨0, _⟩ => rfl | ⟨1, _⟩ => rfl)
  have er : idx_main_v0 (ridx_main_v1 i k) = ix2 (i 1) k :=
    funext fun a => Fin.ext (by match a with | ⟨0, _⟩ => rfl | ⟨1, _⟩ => rfl)
  rw [el, er]
  rfl

end Cert.ReferenceIdeal.GateValue

end
-- ==== Proof.lean ====
/-
  The router gate kernel against `jnp.matmul(x, weight.T)`, over the extended reals.

  The kernel computes the logits expert-major, `weight · xᵀ`, one block of 1024 tokens per grid point, and the host
  transposes the `[8, 16384]` array at the end; the reference computes `x · weightᵀ` directly.  Entry `(t, e)` of the
  kernel's result is `∑ k, w (e, k) · x (t, k)`, of the reference's `∑ k, x (t, k) · w (e, k)`: the same sum with the
  factors of every product exchanged, equal because multiplication of extended reals commutes.  The precondition
  (finite inputs) is not used by the value claim: nothing is distributed over a sum or cancelled.

  Proof/GateLogits.lean states the two layouts of the logits and their agreement; Proof/GateKernel.lean reads the
  idealized kernel's run down to the token-major logits (the body's product at an index, each point's write-back as
  a block of one array-wide function, the blocks covering the array, the final transpose);
  Proof/GateReference.lean reads the reference's product at an index.  The three frames are the generated ones
  (the reference's is its generated run with the result dropped); the idealization rewrote no operation, so
  `preserves` states nothing.
-/
import proofs.«172564_g56178172231927_cont_sun_m_171_25_alg».proof.Defs
import proofs.«172564_g56178172231927_cont_sun_m_171_25_alg».proof.Proof.Gen.Kernel
import proofs.«172564_g56178172231927_cont_sun_m_171_25_alg».proof.Proof.Gen.Kernel.Skeleton
import proofs.«172564_g56178172231927_cont_sun_m_171_25_alg».proof.Proof.Gen.Kernel.Launch
import proofs.«172564_g56178172231927_cont_sun_m_171_25_alg».proof.Proof.Gen.Kernel.Points
import proofs.«172564_g56178172231927_cont_sun_m_171_25_alg».proof.Proof.Gen.Kernel.Frame
import proofs.«172564_g56178172231927_cont_sun_m_171_25_alg».proof.Proof.Gen.KernelIdeal
import proofs.«172564_g56178172231927_cont_sun_m_171_25_alg».proof.Proof.Gen.KernelIdeal.Skeleton
import proofs.«172564_g56178172231927_cont_sun_m_171_25_alg».proof.Proof.Gen.KernelIdeal.Launch
import proofs.«172564_g56178172231927_cont_sun_m_171_25_alg».proof.Proof.Gen.KernelIdeal.Points
import proofs.«172564_g56178172231927_cont_sun_m_171_25_alg».proof.Proof.Gen.KernelIdeal.Frame
import proofs.«172564_g56178172231927_cont_sun_m_171_25_alg».proof.Proof.Gen.ReferenceIdeal
import proofs.«172564_g56178172231927_cont_sun_m_171_25_alg».proof.Proof.Gen.ReferenceIdeal.Run
import proofs.«172564_g56178172231927_cont_sun_m_171_25_alg».proof.Proof.Gen.ReferenceIdeal.Read
import proofs.«172564_g56178172231927_cont_sun_m_171_25_alg».proof.Proof.Gen.Pre_finite_inputs
import proofs.«172564_g56178172231927_cont_sun_m_171_25_alg».proof.Proof.GateLogits
import proofs.«172564_g56178172231927_cont_sun_m_171_25_alg».proof.Proof.GateKernel
import proofs.«172564_g56178172231927_cont_sun_m_171_25_alg».proof.Proof.GateReference
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten by the idealization. -/
theorem preserves : Cert.preserves_Kernel_KernelIdeal := trivial

/-- From memories agreeing on the arguments both programs end with the token-major logits of those arguments in
    their result buffers: the kernel's by its run read down to the logits, the reference's by its product read at an
    index. -/
theorem algebraic : Cert.algebraic_KernelIdeal_ReferenceIdeal := by
  intro m ρ m' ρ' _ hagree
  refine ⟨fun c => Cert.Gate.logits
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.GateValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.GateValue.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
